-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_arg18 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg14 : FVec F S128 .f32) (main_arg15 : FVec F S128x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S131072x128 .f32) (main_arg1 : FVec F S131072x128 .f32) (main_arg2 : FVec F S131072x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S131072x128 : Shape := ⟨2, ![131072, 128]⟩
abbrev S128x128 : Shape := ⟨2, ![128, 128]⟩
abbrev S128 : Shape := ⟨1, ![128]⟩
abbrev S128x512 : Shape := ⟨2, ![128, 512]⟩
abbrev S512 : Shape := ⟨1, ![512]⟩
abbrev S1x512 : Shape := ⟨2, ![1, 512]⟩
abbrev S2048x128 : Shape := ⟨2, ![2048, 128]⟩
abbrev S2048x512 : Shape := ⟨2, ![2048, 512]⟩

abbrev nBuf : Space → Nat
  | .hbm => 37
  | .vmem => 13
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x512, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x512, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S128x512, .bf16⟩
  | .hbm, ⟨34, _⟩ => ⟨S128x512, .bf16⟩
  | .hbm, ⟨35, _⟩ => ⟨S131072x128, .f32⟩
  | .hbm, ⟨36, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x128_S128x128_1_0 : S128x128.Transposes [1, 0] S128x128
  concatenates_S128x128_S128x128_S128x128_S128x128_S128x512_d1 : Shape.Concatenates [S128x128, S128x128, S128x128, S128x128] S128x512 1
  concatenates_S128_S128_S128_S128_S512_d0 : Shape.Concatenates [S128, S128, S128, S128] S512 0
  shapeCasts_S512_S1x512 : S512.ShapeCasts S1x512
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S131072x128.size a
  hwx0_6 : ∀ i : grid0.Coords, EltTy.bits .f32 = 32 ∨ (Rect.block (s := S131072x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S131072x128.size a
  hwx0_7 : ∀ i : grid0.Coords, EltTy.bits .f32 = 32 ∨ (Rect.block (s := S131072x128) S2048x128.size (cc0_transform_7 i) (hinb0_7 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S512x128 : Shape := ⟨2, ![512, 128]⟩
abbrev S512 : Shape := ⟨1, ![512]⟩
abbrev S128x512 : Shape := ⟨2, ![128, 512]⟩
abbrev S131072x512 : Shape := ⟨2, ![131072, 512]⟩
abbrev S1x512 : Shape := ⟨2, ![1, 512]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S512x128, .f32⟩
  | .hbm, ⟨20, _⟩ => ⟨S512x128, .f32⟩
  | .hbm, ⟨21, _⟩ => ⟨S512, .f32⟩
  | .hbm, ⟨22, _⟩ => ⟨S512, .f32⟩
  | .hbm, ⟨23, _⟩ => ⟨S128x512, .f32⟩
  | .hbm, ⟨24, _⟩ => ⟨S131072x512, .f32⟩
  | .hbm, ⟨25, _⟩ => ⟨S128x512, .f32⟩
  | .hbm, ⟨26, _⟩ => ⟨S131072x512, .f32⟩
  | .hbm, ⟨27, _⟩ => ⟨S131072x512, .f32⟩
  | .hbm, ⟨28, _⟩ => ⟨S1x512, .f32⟩
  | .hbm, ⟨29, _⟩ => ⟨S131072x512, .f32⟩
  | .hbm, ⟨30, _⟩ => ⟨S131072x512, .f32⟩
  | .hbm, ⟨31, _⟩ => ⟨S1x512, .f32⟩
  | .hbm, ⟨32, _⟩ => ⟨S131072x512, .f32⟩
  | .hbm, ⟨33, _⟩ => ⟨S131072x512, .f32⟩
  | .hbm, ⟨34, _⟩ => ⟨S131072x128, .f32⟩
  | .hbm, ⟨35, _⟩ => ⟨S131072x128, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S131072x128, .f32⟩
  | .hbm, ⟨40, _⟩ => ⟨S_, .f32⟩
  | .hbm, ⟨41, _⟩ => ⟨S131072x128, .f32⟩
  | .hbm, ⟨42, _⟩ => ⟨S131072x128, .f32⟩
  | .hbm, ⟨43, _⟩ => ⟨S_, .f32⟩
  | .hbm, ⟨44, _⟩ => ⟨S131072x128, .f32⟩
  | .hbm, ⟨45, _⟩ => ⟨S131072x128, .f32⟩
  | .hbm, ⟨46, _⟩ => ⟨S131072x128, .f32⟩
  | .hbm, ⟨47, _⟩ => ⟨S131072x128, .f32⟩
  | .hbm, ⟨48, _⟩ => ⟨S_, .f32⟩
  | .hbm, ⟨49, _⟩ => ⟨S131072x128, .f32⟩
  | .hbm, ⟨50, _⟩ => ⟨S131072x128, .f32⟩
  | .hbm, ⟨51, _⟩ => ⟨S_, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S_, .f32⟩
  | .hbm, ⟨58, _⟩ => ⟨S131072x128, .f32⟩
  | .hbm, ⟨59, _⟩ => ⟨S131072x128, .f32⟩
  | .hbm, ⟨60, _⟩ => ⟨S_, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S131072x128, .f32⟩
  | .hbm, ⟨67, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S128x128_S128x128_S128x128_S128x128_S512x128_d0 : Shape.Concatenates [S128x128, S128x128, S128x128, S128x128] S512x128 0
  concatenates_S128_S128_S128_S128_S512_d0 : Shape.Concatenates [S128, S128, S128, S128] S512 0
  transposes_S512x128_S128x512_1_0 : S512x128.Transposes [1, 0] S128x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.RegionBits.lean ====
import proofs.«151129_j11398843204098_2_alg».proof.Proof.Gen.Kernel.Launch
import proofs.«151129_j11398843204098_2_alg».proof.Proof.Gen.Kernel.Skeleton
import proofs.«151129_j11398843204098_2_alg».proof.Proof.Gen.Kernel.Points
import Idealize.ShloMosaic.Lib.Pipeline.FrameBody
import Idealize.ShloMosaic.Lib.Ring
import Idealize.ShloMosaic.Lib.Tactic

/-!
# The run of the program up to and through its one region

The program is sixteen host operations (eight transposes, four concatenations, a sum, a reshape and two
narrowings of the weights) followed by one region over a grid of 64 points. At point t the region's body reads
rows 2048 t to 2048 t + 2047 of the three batch arrays, the two whole 128 x 512 weight matrices and the
1 x 512 bias row, and writes rows 2048 t to 2048 t + 2047 of the two results. The body has two covering
stores, so what each result's buffer holds after the body is one payload of the six blocks read; the six
input buffers are left as found. From this: every weakly fair execution terminates without a fault, each
result array ends at the blocks the points wrote, and every other array ends as the region found it; in
particular the nineteen arguments, which no host operation writes, end as launched.
-/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core c's buffers when the region is entered: the launch contents after the sixteen host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))

/-! ## The blocks the body reads -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetches it (the three
batch arrays, whose block moves with the point) or not (the weights and the bias, whose one block is fetched at
the first point and never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body leaves in the two result buffers -/

/-- The whole 2048 x 128 block, the whole 128 x 512 weight block, the whole 1 x 512 bias row. -/
abbrev rA : Rect S2048x128 := Rect.unit (s := S2048x128) ![0, 0] S2048x128.size inb_S2048x128_S2048x128_0_0
abbrev rW : Rect S128x512 := Rect.unit (s := S128x512) ![0, 0] S128x512.size inb_S128x512_S128x512_0_0
abbrev rB : Rect S1x512 := Rect.unit (s := S1x512) ![0, 0] S1x512.size inb_S1x512_S1x512_0_0

/-- The first result's buffer after the body (the new hidden state), from the six blocks read. -/
def outH (x0 x1 x2 : Vec F S2048x128 .f32) (x3 x4 : Vec F S128x512 .bf16) (x5 : Vec F S1x512 .f32) : Vec F S2048x128 .f32 :=
  View.canon [⟨rA, k0_pay3 (View.ld x0 rA) (View.ld x1 rA) (View.ld x3 rW) (View.ld x4 rW) (View.ld x5 rB) (View.ld x2 rA)⟩]
/-- The second result's buffer after the body (the new cell state). -/
def outC (x0 x1 x2 : Vec F S2048x128 .f32) (x3 x4 : Vec F S128x512 .bf16) (x5 : Vec F S1x512 .f32) : Vec F S2048x128 .f32 :=
  View.canon [⟨rA, k0_pay2 (View.ld x0 rA) (View.ld x1 rA) (View.ld x3 rW) (View.ld x4 rW) (View.ld x5 rB) (View.ld x2 rA)⟩]

/-- One store of the whole block covers the buffer. -/
theorem coverA (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y

/-! ## The body -/

set_option maxHeartbeats 1000000 in
/-- The body on whole buffers, the six inputs' at contents x0 to x5 and the two results' at anything, runs to the
    continuation with the inputs' as they were and the results' at outH, outC of the inputs'. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S128x512 .bf16) (harg4 : arg4.IsWhole) (arg5 : Memref sig .tc .vmem S128x512 .bf16) (harg5 : arg5.IsWhole) (arg6 : Memref sig .tc .vmem S1x512 .f32) (harg6 : arg6.IsWhole) (arg7 : Memref sig .tc .vmem S2048x128 .f32) (harg7 : arg7.IsWhole) (arg8 : Memref sig .tc .vmem S2048x128 .f32) (harg8 : arg8.IsWhole)
    (x0 x1 x2 : Vec F S2048x128 .f32) (x3 x4 : Vec F S128x512 .bf16) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-! ## The region's proof data -/

/-- On core c: the arrays as the region finds them; after the body at point t each input's buffer at its block and
    each result's at outH / outC of the six blocks; nothing else is used, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, and in every final state each array of the region holds
    what the library computes from the proof data and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its nineteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Region

end
-- ==== Proof.RegionIdeal.lean ====
import proofs.«151129_j11398843204098_2_alg».proof.Proof.Gen.KernelIdeal.Launch
import proofs.«151129_j11398843204098_2_alg».proof.Proof.Gen.KernelIdeal.Skeleton
import proofs.«151129_j11398843204098_2_alg».proof.Proof.Gen.KernelIdeal.Points
import Idealize.ShloMosaic.Lib.Pipeline.FrameBody
import Idealize.ShloMosaic.Lib.Ring
import Idealize.ShloMosaic.Lib.Tactic

/-!
# The run of the program up to and through its one region

The program is sixteen host operations (eight transposes, four concatenations, a sum, a reshape and two
narrowings of the weights) followed by one region over a grid of 64 points. At point t the region's body reads
rows 2048 t to 2048 t + 2047 of the three batch arrays, the two whole 128 x 512 weight matrices and the
1 x 512 bias row, and writes rows 2048 t to 2048 t + 2047 of the two results. The body has two covering
stores, so what each result's buffer holds after the body is one payload of the six blocks read; the six
input buffers are left as found. From this: every weakly fair execution terminates without a fault, each
result array ends at the blocks the points wrote, and every other array ends as the region found it; in
particular the nineteen arguments, which no host operation writes, end as launched.
-/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core c's buffers when the region is entered: the launch contents after the sixteen host operations. -/
abbrev V (c : Dev nD) (b : Ref sig .tc) : Buf (Elt F) ((c : Thread nD τ).loc b) := StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))

/-! ## The blocks the body reads -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current buffer holds its block at every point, whether the point fetches it (the three
batch arrays, whose block moves with the point) or not (the weights and the bias, whose one block is fetched at
the first point and never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩) h

/-! ## What the body leaves in the two result buffers -/

/-- The whole 2048 x 128 block, the whole 128 x 512 weight block, the whole 1 x 512 bias row. -/
abbrev rA : Rect S2048x128 := Rect.unit (s := S2048x128) ![0, 0] S2048x128.size inb_S2048x128_S2048x128_0_0
abbrev rW : Rect S128x512 := Rect.unit (s := S128x512) ![0, 0] S128x512.size inb_S128x512_S128x512_0_0
abbrev rB : Rect S1x512 := Rect.unit (s := S1x512) ![0, 0] S1x512.size inb_S1x512_S1x512_0_0

/-- The first result's buffer after the body (the new hidden state), from the six blocks read. -/
def outH (x0 x1 x2 : Vec F S2048x128 .f32) (x3 x4 : Vec F S128x512 .bf16) (x5 : Vec F S1x512 .f32) : Vec F S2048x128 .f32 :=
  View.canon [⟨rA, k0_pay3 (View.ld x0 rA) (View.ld x1 rA) (View.ld x3 rW) (View.ld x4 rW) (View.ld x5 rB) (View.ld x2 rA)⟩]
/-- The second result's buffer after the body (the new cell state). -/
def outC (x0 x1 x2 : Vec F S2048x128 .f32) (x3 x4 : Vec F S128x512 .bf16) (x5 : Vec F S1x512 .f32) : Vec F S2048x128 .f32 :=
  View.canon [⟨rA, k0_pay2 (View.ld x0 rA) (View.ld x1 rA) (View.ld x3 rW) (View.ld x4 rW) (View.ld x5 rB) (View.ld x2 rA)⟩]

/-- One store of the whole block covers the buffer. -/
theorem coverA (p0 : Vec F S2048x128 .f32) (y : S2048x128.Idx) :
    ∃ pc ∈ ([⟨rA, p0⟩] : List (View.Piece (Elt F) S2048x128 .f32)), y ∈ pc.1.set :=
  View.cover_of_tiled [⟨rA, p0⟩] S2048x128.size (by rfl) y

/-! ## The body -/

set_option maxHeartbeats 1000000 in
/-- The body on whole buffers, the six inputs' at contents x0 to x5 and the two results' at anything, runs to the
    continuation with the inputs' as they were and the results' at outH, outC of the inputs'. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S128x512 .bf16) (harg4 : arg4.IsWhole) (arg5 : Memref sig .tc .vmem S128x512 .bf16) (harg5 : arg5.IsWhole) (arg6 : Memref sig .tc .vmem S1x512 .f32) (harg6 : arg6.IsWhole) (arg7 : Memref sig .tc .vmem S2048x128 .f32) (harg7 : arg7.IsWhole) (arg8 : Memref sig .tc .vmem S2048x128 .f32) (harg8 : arg8.IsWhole)
    (x0 x1 x2 : Vec F S2048x128 .f32) (x3 x4 : Vec F S128x512 .bf16) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverA _)
  iexists _; isplitr
  swap; · iexact H7
  ipureintro
  exact View.read_writes_eq_canon _ _ _ (coverA _)

/-! ## The region's proof data -/

/-- On core c: the arrays as the region finds them; after the body at point t each input's buffer at its block and
    each result's at outH / outC of the six blocks; nothing else is used, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outH (iblk m c 0 t) (iblk m c 1 t) (iblk m c 2 t) (iblk m c 3 t) (iblk m c 4 t) (iblk m c 5 t) := by dsimp only [dats]
theorem after7 (c : Dev nD) (t : Fin cfg0.N) : (dats m 0 c).after 7 t = outC (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, and in every final state each array of the region holds
    what the library computes from the proof data and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and its nineteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Region

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.PayIdeal.lean ====
/-
  The arithmetic of the region's body, read at an index, on the extended reals.

  The body forms, from the blocks x (rows of X), h (rows of Hp), the two weight matrices wx, wh, the bias row b and
  the block c (rows of Cp), the 2048 x 512 array

      z(p, n) = (sum_k x(p, k) * wx(k, n) + sum_k h(p, k) * wh(k, n)) + b(0, n)

  (the two products into zero accumulators, their sum, the bias row broadcast down the rows), cuts it into four
  2048 x 128 column bands and stores

      cell(p, j)   = logistic(z(p, j)) * c(p, j) + logistic(z(p, 128 + j)) * tanh(z(p, 256 + j)),
      hidden(p, j) = logistic(z(p, 384 + j)) * tanh(cell(p, j)).

  The narrowing of x and h to bf16 before the products is the identity on the extended reals.
-/
import proofs.«151129_j11398843204098_2_alg».proof.Proof.Gen.KernelIdeal.Skeleton
import proofs.«151129_j11398843204098_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

variable (v0 v2 v23 : Vec Ideal S2048x128 .f32) (v4 v6 : Vec Ideal S128x512 .bf16) (v11 : Vec Ideal S1x512 .f32)

/-- The pre-activation the body computes in row p of the block and gate column n. -/
def z (p : Fin 2048) (n : Fin 512) : EReal :=
  (∑ k : Fin 128, v0 (ix2 p k) * v4 (ix2 k n) + ∑ k : Fin 128, v2 (ix2 p k) * v6 (ix2 k n)) + v11 (ix2 (0 : Fin 1) n)

/-- A product of a 2048 x 128 block, narrowed, with a 128 x 512 matrix into a zero accumulator, at (p, n). -/
theorem product_apply (x : FVec Ideal S2048x128 .f32) (w : FVec Ideal S128x512 .bf16) (p : Fin 2048) (n : Fin 512) :
    matmul (F := Ideal) dot_S2048x128_S128x512_S2048x512_1_0_0_1_n_n none (truncf .bf16 x bitsLt_bf16_f32)
        (shapeCast S128x512 w shapeCasts_S128x512_S128x512) (constant (F := Ideal) S2048x512 .f32 0x00000000#32) (ix2 p n)
      = ∑ k : Fin 128, x (ix2 p k) * w (ix2 k n) := by
  rw [shapeCast_self]
  exact Cert.LibPlainDot.matmul_zero_apply (R := 2048) (K := 128) (C := 512)
    dot_S2048x128_S128x512_S2048x512_1_0_0_1_n_n_wf none (truncf .bf16 x bitsLt_bf16_f32) w p n

/-- The bias row broadcast down the rows, at (p, n). -/
theorem bias_apply (b : FVec Ideal S1x512 .f32) (p : Fin 2048) (n : Fin 512) :
    broadcastTo S2048x512 (shapeCast S1x512 b shapeCasts_S1x512_S1x512) broadcasts_S1x512_S2048x512 (ix2 p n)
      = b (ix2 (0 : Fin 1) n) := by
  rw [shapeCast_self]
  exact broadcastTo_1b_ab_apply b broadcasts_S1x512_S2048x512 p n

/-- The 2048 x 512 array of pre-activations at (p, n). -/
theorem pay1_apply (p : Fin 2048) (n : Fin 512) : k0_pay1 v0 v2 v4 v6 v11 (ix2 p n) = z v0 v2 v4 v6 v11 p n := by
  unfold k0_pay1 z
  exact congrArg₂ (· + ·) (congrArg₂ (· + ·) (product_apply v0 v4 p n) (product_apply v2 v6 p n)) (bias_apply v11 p n)

/-- A column band of the pre-activations: the band from column o, at (p, j), is column o + j. -/
theorem band_apply (o : Nat) (h : S2048x512.Slices ![0, o] S2048x128) (p : Fin 2048) (j : Fin 128) (n : Fin 512)
    (hn : n.val = o + j.val) :
    extractStridedSlice S2048x128 ![0, o] (k0_pay1 v0 v2 v4 v6 v11) h (ix2 p j) = z v0 v2 v4 v6 v11 p n :=
  (slice2_axis1_apply o (k0_pay1 v0 v2 v4 v6 v11) h p j n hn).trans (pay1_apply v0 v2 v4 v6 v11 p n)

/-- The new cell state the body stores, at (p, j). -/
theorem pay2_apply (p : Fin 2048) (j : Fin 128) :
    k0_pay2 v0 v2 v4 v6 v11 v23 (ix2 p j)
      = Ideal.logistic (z v0 v2 v4 v6 v11 p ⟨j.val, by omega⟩) * v23 (ix2 p j)
        + Ideal.logistic (z v0 v2 v4 v6 v11 p ⟨128 + j.val, by omega⟩) * Ideal.tanh (z v0 v2 v4 v6 v11 p ⟨256 + j.val, by omega⟩) := by
  unfold k0_pay2
  exact congrArg₂ (· + ·)
    (congrArg₂ (· * ·) (congrArg Ideal.logistic (band_apply v0 v2 v4 v6 v11 0 _ p j ⟨j.val, by omega⟩ (Nat.zero_add _).symm)) rfl)
    (congrArg₂ (· * ·) (congrArg Ideal.logistic (band_apply v0 v2 v4 v6 v11 128 _ p j ⟨128 + j.val, by omega⟩ rfl))
      (congrArg Ideal.tanh (band_apply v0 v2 v4 v6 v11 256 _ p j ⟨256 + j.val, by omega⟩ rfl)))

/-- The new hidden state the body stores, at (p, j). -/
theorem pay3_apply (p : Fin 2048) (j : Fin 128) :
    k0_pay3 v0 v2 v4 v6 v11 v23 (ix2 p j)
      = Ideal.logistic (z v0 v2 v4 v6 v11 p ⟨384 + j.val, by omega⟩) * Ideal.tanh (k0_pay2 v0 v2 v4 v6 v11 v23 (ix2 p j)) := by
  unfold k0_pay3
  exact congrArg₂ (· * ·) (congrArg Ideal.logistic (band_apply v0 v2 v4 v6 v11 384 _ p j ⟨384 + j.val, by omega⟩ rfl)) rfl

end Cert.KernelIdeal.Pay

end
-- ==== Proof.Spec.lean ====
/-
  One step of an LSTM cell over a batch, as a function of the arrays.

  For a batch row r and a hidden unit j the four gate pre-activations are the columns j, 128 + j, 256 + j and
  384 + j of

      gate(r, n) = (sum_k X(r, k) * Wx(k, n) + sum_k Hp(r, k) * Wh(k, n)) + b(n),

  where Wx and Wh are the two 128 x 512 weight matrices (the four gates' matrices side by side, each
  transposed) and b the 512 biases. The new cell state and the new hidden state are

      cell(r, j)   = logistic(gate(r, j)) * Cp(r, j) + logistic(gate(r, 128 + j)) * tanh(gate(r, 256 + j)),
      hidden(r, j) = logistic(gate(r, 384 + j)) * tanh(cell(r, j)).

  Everything is on the extended reals. The only algebra used anywhere is that addition of extended reals is
  associative: adding the two bias vectors first and then adding their sum to the products, or adding them one
  after the other, gives the same gate. That law holds at the infinities too, so no finiteness is needed.
-/
import Idealize.ShloMosaic.PureOps.Ideal
import Idealize.ShloMosaic.PureOps.Ideal.Laws
import Idealize.ShloMosaic.Lib.ValueIdx

noncomputable section

open scoped BigOperators

namespace Cert.LstmSpec

open Idealize.ShloMosaic Idealize.ShloMosaic.ValueIdx

/-- The batch arrays' shape, the weight matrices' shape. -/
abbrev SB : Shape := ⟨2, ![131072, 128]⟩
abbrev SW : Shape := ⟨2, ![128, 512]⟩

/-- The pre-activation in batch row r and gate column n. -/
def gate (X Hp : SB.Idx → EReal) (Wx Wh : SW.Idx → EReal) (b : Fin 512 → EReal) (r : Fin 131072) (n : Fin 512) : EReal :=
  (∑ k : Fin 128, X (ix2 r k) * Wx (ix2 k n) + ∑ k : Fin 128, Hp (ix2 r k) * Wh (ix2 k n)) + b n

/-- Unit j's column in each of the four gates' bands of the 512 gate columns. -/
abbrev col0 (j : Fin 128) : Fin 512 := ⟨j.val, by have := j.isLt; omega⟩
abbrev col1 (j : Fin 128) : Fin 512 := ⟨128 + j.val, by have := j.isLt; omega⟩
abbrev col2 (j : Fin 128) : Fin 512 := ⟨256 + j.val, by have := j.isLt; omega⟩
abbrev col3 (j : Fin 128) : Fin 512 := ⟨384 + j.val, by have := j.isLt; omega⟩

/-- The new cell state in row r, unit j. -/
def cellAt (X Hp Cp : SB.Idx → EReal) (Wx Wh : SW.Idx → EReal) (b : Fin 512 → EReal) (r : Fin 131072) (j : Fin 128) : EReal :=
  Ideal.logistic (gate X Hp Wx Wh b r (col0 j)) * Cp (ix2 r j)
    + Ideal.logistic (gate X Hp Wx Wh b r (col1 j)) * Ideal.tanh (gate X Hp Wx Wh b r (col2 j))

/-- The new hidden state in row r, unit j. -/
def hiddenAt (X Hp Cp : SB.Idx → EReal) (Wx Wh : SW.Idx → EReal) (b : Fin 512 → EReal) (r : Fin 131072) (j : Fin 128) : EReal :=
  Ideal.logistic (gate X Hp Wx Wh b r (col3 j)) * Ideal.tanh (cellAt X Hp Cp Wx Wh b r j)

/-- The two results as whole arrays. -/
def cellArr (X Hp Cp : SB.Idx → EReal) (Wx Wh : SW.Idx → EReal) (b : Fin 512 → EReal) : SB.Idx → EReal :=
  fun i => cellAt X Hp Cp Wx Wh b ⟨(i 0).val, (i 0).isLt⟩ ⟨(i 1).val, (i 1).isLt⟩
def hiddenArr (X Hp Cp : SB.Idx → EReal) (Wx Wh : SW.Idx → EReal) (b : Fin 512 → EReal) : SB.Idx → EReal :=
  fun i => hiddenAt X Hp Cp Wx Wh b ⟨(i 0).val, (i 0).isLt⟩ ⟨(i 1).val, (i 1).isLt⟩

theorem cellArr_ix2 (X Hp Cp : SB.Idx → EReal) (Wx Wh : SW.Idx → EReal) (b : Fin 512 → EReal) (r : Fin 131072) (j : Fin 128) :
    cellArr X Hp Cp Wx Wh b (ix2 r j) = cellAt X Hp Cp Wx Wh b r j := rfl
theorem hiddenArr_ix2 (X Hp Cp : SB.Idx → EReal) (Wx Wh : SW.Idx → EReal) (b : Fin 512 → EReal) (r : Fin 131072) (j : Fin 128) :
    hiddenArr X Hp Cp Wx Wh b (ix2 r j) = hiddenAt X Hp Cp Wx Wh b r j := rfl

/-- Adding two biases one after the other is adding their sum. -/
theorem gate_two_biases (X Hp : SB.Idx → EReal) (Wx Wh : SW.Idx → EReal) (bx bh : Fin 512 → EReal) (r : Fin 131072) (n : Fin 512) :
    ((∑ k : Fin 128, X (ix2 r k) * Wx (ix2 k n) + ∑ k : Fin 128, Hp (ix2 r k) * Wh (ix2 k n)) + bx n) + bh n
      = gate X Hp Wx Wh (fun n => bx n + bh n) r n := by
  unfold gate
  rw [add_assoc]

/-- The word of the float one denotes the real one. -/
theorem ofBits_one : Ideal.ofBits .f32 0x3F800000#32 = 1 := by
  simp [Ideal.ofBits, Ideal.ieee, -EReal.coe_mul]; norm_num

/-- The logistic function spelt out with a quotient is the logistic function. -/
theorem logistic_spelt (x : EReal) :
    Ideal.div (Ideal.ofBits .f32 0x3F800000#32) (Ideal.ofBits .f32 0x3F800000#32 + Ideal.exp (-x)) = Ideal.logistic x := by
  rw [ofBits_one]; rfl

end Cert.LstmSpec

end
-- ==== Proof.WholeIdeal.lean ====
/-
  From the blocks to the two result arrays.

  Point t of the grid reads rows 2048 t to 2048 t + 2047 of the three batch arrays, the whole weight matrices and
  the whole bias row, and writes rows 2048 t to 2048 t + 2047 of the two results. What it writes is, entry by entry,
  the LSTM step of Spec.lean applied to the arrays as the region finds them; the 64 blocks tile the result arrays;
  so after the run each result array is the specification's array of those arrays.
-/
import proofs.«151129_j11398843204098_2_alg».proof.Proof.RegionIdeal
import proofs.«151129_j11398843204098_2_alg».proof.Proof.PayIdeal
import proofs.«151129_j11398843204098_2_alg».proof.Proof.Spec
import Idealize.ShloMosaic.Lib.Pipeline.Value

noncomputable section

open scoped BigOperators

namespace Cert.KernelIdeal.Whole

open Cert.KernelIdeal Cert.KernelIdeal.Gen Cert.KernelIdeal.Region Idealize.ShloMosaic Idealize.ShloMosaic.TcCoe Idealize.SL.Sem
open Idealize.ShloMosaic.ValueIdx Cert.LstmSpec
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the batch arrays' and the results' blocks move down one block per point, the
    weights' and the bias's block stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row p of point t's block is row 2048 t + p of the array. -/
def row (t : Fin cfg0.N) (p : Fin 2048) : Fin 131072 :=
  ⟨2048 * t.val + p.val, by have := lt_of_lt_of_eq t.isLt N_0; have := p.isLt; omega⟩

/-- Window 0's block at point t is rows 2048 t onward of its array. -/
theorem read0 (c : Dev nD) (t : Fin cfg0.N) (p : Fin 2048) (k : Fin 128) :
    iblk m c 0 t (ix2 p k) = V m c main_arg0 (ix2 (row t p) k) := by
  show V m c main_arg0 (((cfg0.win 0).blk t).view.emb (ix2 p k)) = _
  refine congrArg (V m c main_arg0) (funext fun a => Fin.ext ?_)
  obtain ⟨a00, a01, a10, a11, a20, a21, a60, a61, a70, a71, a30, a31, a40, a41, a50, a51⟩ := idx_facts t
  match a with
  | ⟨0, _⟩ => show win0_0.index t (0 : Fin 2) * 2048 + 1 * p.val = 2048 * t.val + p.val; omega
  | ⟨1, _⟩ => show win0_0.index t (1 : Fin 2) * 128 + 1 * k.val = k.val; omega

/-- Window 1's block at point t is rows 2048 t onward of its array. -/
theorem read1 (c : Dev nD) (t : Fin cfg0.N) (p : Fin 2048) (k : Fin 128) :
    iblk m c 1 t (ix2 p k) = V m c main_arg1 (ix2 (row t p) k) := by
  show V m c main_arg1 (((cfg0.win 1).blk t).view.emb (ix2 p k)) = _
  refine congrArg (V m c main_arg1) (funext fun a => Fin.ext ?_)
  obtain ⟨a00, a01, a10, a11, a20, a21, a60, a61, a70, a71, a30, a31, a40, a41, a50, a51⟩ := idx_facts t
  match a with
  | ⟨0, _⟩ => show win0_1.index t (0 : Fin 2) * 2048 + 1 * p.val = 2048 * t.val + p.val; omega
  | ⟨1, _⟩ => show win0_1.index t (1 : Fin 2) * 128 + 1 * k.val = k.val; omega

/-- Window 2's block at point t is rows 2048 t onward of its array. -/
theorem read2 (c : Dev nD) (t : Fin cfg0.N) (p : Fin 2048) (k : Fin 128) :
    iblk m c 2 t (ix2 p k) = V m c main_arg2 (ix2 (row t p) k) := by
  show V m c main_arg2 (((cfg0.win 2).blk t).view.emb (ix2 p k)) = _
  refine congrArg (V m c main_arg2) (funext fun a => Fin.ext ?_)
  obtain ⟨a00, a01, a10, a11, a20, a21, a60, a61, a70, a71, a30, a31, a40, a41, a50, a51⟩ := idx_facts t
  match a with
  | ⟨0, _⟩ => show win0_2.index t (0 : Fin 2) * 2048 + 1 * p.val = 2048 * t.val + p.val; omega
  | ⟨1, _⟩ => show win0_2.index t (1 : Fin 2) * 128 + 1 * k.val = k.val; omega

/-- Window 3's one block is its whole array. -/
theorem read3 (c : Dev nD) (t : Fin cfg0.N) (k : Fin 128) (n : Fin 512) :
    iblk m c 3 t (ix2 k n) = V m c main_v14 (ix2 k n) := by
  show V m c main_v14 (((cfg0.win 3).blk t).view.emb (ix2 k n)) = _
  refine congrArg (V m c main_v14) (funext fun a => Fin.ext ?_)
  obtain ⟨a00, a01, a10, a11, a20, a21, a60, a61, a70, a71, a30, a31, a40, a41, a50, a51⟩ := idx_facts t
  match a with
  | ⟨0, _⟩ => show win0_3.index t (0 : Fin 2) * 128 + 1 * k.val = k.val; omega
  | ⟨1, _⟩ => show win0_3.index t (1 : Fin 2) * 512 + 1 * n.val = n.val; omega

/-- Window 4's one block is its whole array. -/
theorem read4 (c : Dev nD) (t : Fin cfg0.N) (k : Fin 128) (n : Fin 512) :
    iblk m c 4 t (ix2 k n) = V m c main_v15 (ix2 k n) := by
  show V m c main_v15 (((cfg0.win 4).blk t).view.emb (ix2 k n)) = _
  refine congrArg (V m c main_v15) (funext fun a => Fin.ext ?_)
  obtain ⟨a00, a01, a10, a11, a20, a21, a60, a61, a70, a71, a30, a31, a40, a41, a50, a51⟩ := idx_facts t
  match a with
  | ⟨0, _⟩ => show win0_4.index t (0 : Fin 2) * 128 + 1 * k.val = k.val; omega
  | ⟨1, _⟩ => show win0_4.index t (1 : Fin 2) * 512 + 1 * n.val = n.val; omega

/-- Window 5's one block is its whole array. -/
theorem read5 (c : Dev nD) (t : Fin cfg0.N) (k : Fin 1) (n : Fin 512) :
    iblk m c 5 t (ix2 k n) = V m c main_v13 (ix2 k n) := by
  show V m c main_v13 (((cfg0.win 5).blk t).view.emb (ix2 k n)) = _
  refine congrArg (V m c main_v13) (funext fun a => Fin.ext ?_)
  obtain ⟨a00, a01, a10, a11, a20, a21, a60, a61, a70, a71, a30, a31, a40, a41, a50, a51⟩ := idx_facts t
  match a with
  | ⟨0, _⟩ => show win0_5.index t (0 : Fin 2) * 1 + 1 * k.val = k.val; omega
  | ⟨1, _⟩ => show win0_5.index t (1 : Fin 2) * 512 + 1 * n.val = n.val; omega

/-- Result window 6's block at point t sits at rows 2048 t onward of its array. -/
theorem emb6 (t : Fin cfg0.N) (p : Fin 2048) (j : Fin 128) :
    ((cfg0.win 6).blk t).view.emb (ix2 p j) = ix2 (row t p) j := by
  refine funext fun a => Fin.ext ?_
  obtain ⟨a00, a01, a10, a11, a20, a21, a60, a61, a70, a71, a30, a31, a40, a41, a50, a51⟩ := idx_facts t
  match a with
  | ⟨0, _⟩ => show win0_6.index t (0 : Fin 2) * 2048 + 1 * p.val = 2048 * t.val + p.val; omega
  | ⟨1, _⟩ => show win0_6.index t (1 : Fin 2) * 128 + 1 * j.val = j.val; omega

/-- Result window 7's block at point t sits at rows 2048 t onward of its array. -/
theorem emb7 (t : Fin cfg0.N) (p : Fin 2048) (j : Fin 128) :
    ((cfg0.win 7).blk t).view.emb (ix2 p j) = ix2 (row t p) j := by
  refine funext fun a => Fin.ext ?_
  obtain ⟨a00, a01, a10, a11, a20, a21, a60, a61, a70, a71, a30, a31, a40, a41, a50, a51⟩ := idx_facts t
  match a with
  | ⟨0, _⟩ => show win0_7.index t (0 : Fin 2) * 2048 + 1 * p.val = 2048 * t.val + p.val; omega
  | ⟨1, _⟩ => show win0_7.index t (1 : Fin 2) * 128 + 1 * j.val = j.val; omega

/-- The pre-activations the body computes at point t are the specification's gates of rows 2048 t onward. -/
theorem z_block (c : Dev nD) (t : Fin cfg0.N) (p : Fin 2048) (n : Fin 512) :
    Pay.z (iblk m c 0 t) (iblk m c 1 t) (iblk m c 3 t) (iblk m c 4 t) (iblk m c 5 t) p n
      = gate (V m c main_arg0) (V m c main_arg1) (V m c main_v14) (V m c main_v15) (fun n => V m c main_v13 (ix2 (0 : Fin 1) n)) (row t p) n := by
  unfold Pay.z gate
  exact congrArg₂ (· + ·)
    (congrArg₂ (· + ·)
      (Finset.sum_congr rfl fun k _ => congrArg₂ (· * ·) (read0 m c t p k) (read3 m c t k n))
      (Finset.sum_congr rfl fun k _ => congrArg₂ (· * ·) (read1 m c t p k) (read4 m c t k n)))
    (read5 m c t (0 : Fin 1) n)

/-- The new cell state the body stores at point t, entry (p, j). -/
theorem cell_block (c : Dev nD) (t : Fin cfg0.N) (p : Fin 2048) (j : Fin 128) :
    k0_pay2 (iblk m c 0 t) (iblk m c 1 t) (iblk m c 3 t) (iblk m c 4 t) (iblk m c 5 t) (iblk m c 2 t) (ix2 p j)
      = cellAt (V m c main_arg0) (V m c main_arg1) (V m c main_arg2) (V m c main_v14) (V m c main_v15) (fun n => V m c main_v13 (ix2 (0 : Fin 1) n)) (row t p) j := by
  refine (Pay.pay2_apply (iblk m c 0 t) (iblk m c 1 t) (iblk m c 2 t) (iblk m c 3 t) (iblk m c 4 t) (iblk m c 5 t) p j).trans ?_
  unfold cellAt
  exact congrArg₂ (· + ·)
    (congrArg₂ (· * ·) (congrArg Ideal.logistic (z_block m c t p (col0 j))) (read2 m c t p j))
    (congrArg₂ (· * ·) (congrArg Ideal.logistic (z_block m c t p (col1 j))) (congrArg Ideal.tanh (z_block m c t p (col2 j))))

/-- The new hidden state the body stores at point t, entry (p, j). -/
theorem hidden_block (c : Dev nD) (t : Fin cfg0.N) (p : Fin 2048) (j : Fin 128) :
    k0_pay3 (iblk m c 0 t) (iblk m c 1 t) (iblk m c 3 t) (iblk m c 4 t) (iblk m c 5 t) (iblk m c 2 t) (ix2 p j)
      = hiddenAt (V m c main_arg0) (V m c main_arg1) (V m c main_arg2) (V m c main_v14) (V m c main_v15) (fun n => V m c main_v13 (ix2 (0 : Fin 1) n)) (row t p) j := by
  refine (Pay.pay3_apply (iblk m c 0 t) (iblk m c 1 t) (iblk m c 2 t) (iblk m c 3 t) (iblk m c 4 t) (iblk m c 5 t) p j).trans ?_
  unfold hiddenAt
  exact congrArg₂ (· * ·) (congrArg Ideal.logistic (z_block m c t p (col3 j))) (congrArg Ideal.tanh (cell_block m c t p j))

/-- What point t writes back to the cell-state array is its block of the specification's array. -/
theorem flushedC_eq (c : Dev nD) (t : Fin cfg0.N) :
    (dats m 0 c).flushed 7 t = ((cfg0.win 7).blk t).view.read (Elt Ideal) (cellArr (V m c main_arg0) (V m c main_arg1) (V m c main_arg2) (V m c main_v14) (V m c main_v15) (fun n => V m c main_v13 (ix2 (0 : Fin 1) n))) := by
  show (cfg0.win 7).cut (grid0.coords t) ((dats m 0 c).after 7 t) = _
  rw [after7]
  unfold outC
  rw [View.canon_unit_zero hz]
  simp only [View.ld_unit_zero (S := S2048x128) hz, View.ld_unit_zero (S := S128x512) hz, View.ld_unit_zero (S := S1x512) hz]
  funext y
  obtain ⟨p, j, rfl⟩ : ∃ (p : Fin 2048) (j : Fin 128), y = ix2 p j := ⟨y 0, y 1, eq_ix2 y⟩
  show k0_pay2 (iblk m c 0 t) (iblk m c 1 t) (iblk m c 3 t) (iblk m c 4 t) (iblk m c 5 t) (iblk m c 2 t) (ix2 p j)
    = cellArr (V m c main_arg0) (V m c main_arg1) (V m c main_arg2) (V m c main_v14) (V m c main_v15) (fun n => V m c main_v13 (ix2 (0 : Fin 1) n)) (((cfg0.win 7).blk t).view.emb (ix2 p j))
  rw [emb7, cellArr_ix2]
  exact cell_block m c t p j

/-- What point t writes back to the hidden-state array is its block of the specification's array. -/
theorem flushedH_eq (c : Dev nD) (t : Fin cfg0.N) :
    (dats m 0 c).flushed 6 t = ((cfg0.win 6).blk t).view.read (Elt Ideal) (hiddenArr (V m c main_arg0) (V m c main_arg1) (V m c main_arg2) (V m c main_v14) (V m c main_v15) (fun n => V m c main_v13 (ix2 (0 : Fin 1) n))) := by
  show (cfg0.win 6).cut (grid0.coords t) ((dats m 0 c).after 6 t) = _
  rw [after6]
  unfold outH
  rw [View.canon_unit_zero hz]
  simp only [View.ld_unit_zero (S := S2048x128) hz, View.ld_unit_zero (S := S128x512) hz, View.ld_unit_zero (S := S1x512) hz]
  funext y
  obtain ⟨p, j, rfl⟩ : ∃ (p : Fin 2048) (j : Fin 128), y = ix2 p j := ⟨y 0, y 1, eq_ix2 y⟩
  show k0_pay3 (iblk m c 0 t) (iblk m c 1 t) (iblk m c 3 t) (iblk m c 4 t) (iblk m c 5 t) (iblk m c 2 t) (ix2 p j)
    = hiddenArr (V m c main_arg0) (V m c main_arg1) (V m c main_arg2) (V m c main_v14) (V m c main_v15) (fun n => V m c main_v13 (ix2 (0 : Fin 1) n)) (((cfg0.win 6).blk t).view.emb (ix2 p j))
  rw [emb6, hiddenArr_ix2]
  exact hidden_block m c t p j

theorem mem_blk6 (t : Fin cfg0.N) (i : S131072x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v16_0).slice (win0_6.rect t)).set ↔ _
  rw [View.set_slice_whole, Rect.mem_set_unit]
  exact Iff.rfl

/-- Every index of the result array is in the block of the point its row falls in. -/
theorem cover6 (i : S131072x128.Idx) : ∃ t : Fin cfg0.N, (cfg0.win 6).flush t = true ∧ i ∈ ((cfg0.win 6).blk t).view.set := by
  have hi0 : (i 0).val < 131072 := (i 0).isLt
  have hi1 : (i 1).val < 128 := (i 1).isLt
  let t : Fin cfg0.N := ⟨(i 0).val / 2048, by rw [show cfg0.N = 64 from N_0]; omega⟩
  refine ⟨t, flush0_6 t, ?_⟩
  rw [mem_blk6]
  obtain ⟨a00, a01, a10, a11, a20, a21, a60, a61, a70, a71, a30, a31, a40, a41, a50, a51⟩ := idx_facts t
  have ht : t.val = (i 0).val / 2048 := rfl
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 128 ≤ (i 1).val ∧ (i 1).val < win0_6.index t (1 : Fin 2) * 128 + 128; omega

theorem mem_blk7 (t : Fin cfg0.N) (i : S131072x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v16_1).slice (win0_7.rect t)).set ↔ _
  rw [View.set_slice_whole, Rect.mem_set_unit]
  exact Iff.rfl

/-- Every index of the result array is in the block of the point its row falls in. -/
theorem cover7 (i : S131072x128.Idx) : ∃ t : Fin cfg0.N, (cfg0.win 7).flush t = true ∧ i ∈ ((cfg0.win 7).blk t).view.set := by
  have hi0 : (i 0).val < 131072 := (i 0).isLt
  have hi1 : (i 1).val < 128 := (i 1).isLt
  let t : Fin cfg0.N := ⟨(i 0).val / 2048, by rw [show cfg0.N = 64 from N_0]; omega⟩
  refine ⟨t, flush0_7 t, ?_⟩
  rw [mem_blk7]
  obtain ⟨a00, a01, a10, a11, a20, a21, a60, a61, a70, a71, a30, a31, a40, a41, a50, a51⟩ := idx_facts t
  have ht : t.val = (i 0).val / 2048 := rfl
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- After the run the hidden-state array is the specification's. -/
theorem finalH (c : Dev nD) : (dats m 0 c).arrAt 6 cfg0.N = hiddenArr (V m c main_arg0) (V m c main_arg1) (V m c main_arg2) (V m c main_v14) (V m c main_v15) (fun n => V m c main_v13 (ix2 (0 : Fin 1) n)) :=
  (dats m 0 c).arrAt_eq_of_cover 6 _ (fun t _ => flushedH_eq m c t) cover6

/-- After the run the cell-state array is the specification's. -/
theorem finalC (c : Dev nD) : (dats m 0 c).arrAt 7 cfg0.N = cellArr (V m c main_arg0) (V m c main_arg1) (V m c main_arg2) (V m c main_v14) (V m c main_v15) (fun n => V m c main_v13 (ix2 (0 : Fin 1) n)) :=
  (dats m 0 c).arrAt_eq_of_cover 7 _ (fun t _ => flushedC_eq m c t) cover7

end Cert.KernelIdeal.Whole

end
-- ==== Proof.LibConcat4.lean ====
/-
  A concatenation of four pieces of one shape, read at an index.

  Four arrays of one shape laid end to end along an axis: the element at an index whose coordinate on that axis is c
  comes from piece c / K, K the pieces' extent on the axis, at the index with the same coordinates off the axis and
  c % K on it.
-/
import Idealize.ShloMosaic.Lib.Pipeline.Value

namespace Cert.LibConcat4

open Idealize.ShloMosaic

variable {α : Type}

/-- Four pieces of one shape s joined along axis a of t, read at j: the piece g = (j a) / K at the index i that agrees
    with j off the axis and has (j a) % K on it. -/
theorem concat4_apply {t s : Shape} (a : Fin t.rank) (x0 x1 x2 x3 : s.Idx → α)
    (h : Shape.Concatenates [s, s, s, s] t a) (hr : s.rank = t.rank) (K : Nat) (hK : s.size (a.cast hr.symm) = K)
    (j : t.Idx) (g : Fin 4) (hg : (j a).val / K = g.val) (i : s.Idx) (hia : (i (a.cast hr.symm)).val = (j a).val % K)
    (hi : ∀ b : Fin s.rank, b.cast hr ≠ a → (i b).val = (j (b.cast hr)).val) :
    concatenate t a [⟨s, x0⟩, ⟨s, x1⟩, ⟨s, x2⟩, ⟨s, x3⟩] h j = (![x0, x1, x2, x3] g) i :=
  concatenate_ofFn_apply a ![x0, x1, x2, x3] h hr K hK j g hg i hia hi

end Cert.LibConcat4
-- ==== Proof.Joined.lean ====
/-
  Four matrices, or four vectors, joined into one.

  The four gates' 128 x 128 weight matrices enter the 128 x 512 weight matrix transposed and side by side: entry
  (k, n) of the joined matrix is entry (n % 128, k) of matrix n / 128. The two programs build it in two ways — one
  transposes each matrix and joins the transposes along the columns, the other joins the matrices along the rows
  and transposes the whole — and both give that entry. The four gates' 128 biases laid end to end give a vector of
  512 whose entry n is entry n % 128 of vector n / 128.
-/
import proofs.«151129_j11398843204098_2_alg».proof.Proof.LibConcat4
import Idealize.ShloMosaic.Lib.ValueIdx
import Idealize.ShloMosaic.Lib.ValueLayout

namespace Cert.LstmSpec

open Idealize.ShloMosaic Idealize.ShloMosaic.ValueIdx

variable {α : Type}

abbrev SM : Shape := ⟨2, ![128, 128]⟩
abbrev SV : Shape := ⟨1, ![128]⟩
abbrev SWT : Shape := ⟨2, ![512, 128]⟩
abbrev SWW : Shape := ⟨2, ![128, 512]⟩
abbrev SV4 : Shape := ⟨1, ![512]⟩

/-- Which of the four pieces column n of 512 falls in, and where in it. -/
abbrev piece (n : Fin 512) : Fin 4 := ⟨n.val / 128, by have := n.isLt; omega⟩
abbrev within (n : Fin 512) : Fin 128 := ⟨n.val % 128, Nat.mod_lt _ (by norm_num)⟩

/-- The joined weight matrix: entry (k, n) is entry (n % 128, k) of matrix n / 128. -/
def wcat (w0 w1 w2 w3 : SM.Idx → α) : SWW.Idx → α :=
  fun i => (![w0, w1, w2, w3] (piece ⟨(i 1).val, (i 1).isLt⟩)) (ix2 (within ⟨(i 1).val, (i 1).isLt⟩) ⟨(i 0).val, (i 0).isLt⟩)

/-- The joined bias vector: entry n is entry n % 128 of vector n / 128. -/
def bcat (b0 b1 b2 b3 : SV.Idx → α) : Fin 512 → α :=
  fun n => (![b0, b1, b2, b3] (piece n)) (ix1 (within n))

theorem wcat_ix2 (w0 w1 w2 w3 : SM.Idx → α) (k : Fin 128) (n : Fin 512) :
    wcat w0 w1 w2 w3 (ix2 k n) = (![w0, w1, w2, w3] (piece n)) (ix2 (within n) k) := rfl

/-- A function applied to each of four pieces, then one picked, is the function applied to the one picked. -/
theorem pick_map {β γ : Type} (f : β → γ) (x0 x1 x2 x3 : β) (g : Fin 4) :
    (![f x0, f x1, f x2, f x3] g) = f (![x0, x1, x2, x3] g) :=
  match g with
  | ⟨0, _⟩ => rfl
  | ⟨1, _⟩ => rfl
  | ⟨2, _⟩ => rfl
  | ⟨3, _⟩ => rfl

/-- Joined along the rows, then transposed. -/
theorem rows_joined_transposed (w0 w1 w2 w3 : SM.Idx → α) (h : Shape.Concatenates [SM, SM, SM, SM] SWT 0)
    (ht : SWT.Transposes [1, 0] SWW) (k : Fin 128) (n : Fin 512) :
    transpose SWW [1, 0] (concatenate SWT 0 [⟨SM, w0⟩, ⟨SM, w1⟩, ⟨SM, w2⟩, ⟨SM, w3⟩] h) ht (ix2 k n)
      = wcat w0 w1 w2 w3 (ix2 k n) := by
  rw [transpose_ix2_apply, wcat_ix2]
  exact Cert.LibConcat4.concat4_apply (t := SWT) (s := SM) 0 w0 w1 w2 w3 h rfl 128 rfl (ix2 n k) (piece n) rfl
    (ix2 (within n) k) rfl (fun b hb => match b, hb with
      | ⟨0, _⟩, hb => absurd rfl hb
      | ⟨1, _⟩, _ => rfl)

/-- Each transposed, then joined along the columns. -/
theorem cols_joined_of_transposed (w0 w1 w2 w3 : SM.Idx → α) (h : Shape.Concatenates [SM, SM, SM, SM] SWW 1)
    (ht : SM.Transposes [1, 0] SM) (k : Fin 128) (n : Fin 512) :
    concatenate SWW 1 [⟨SM, transpose SM [1, 0] w0 ht⟩, ⟨SM, transpose SM [1, 0] w1 ht⟩, ⟨SM, transpose SM [1, 0] w2 ht⟩,
        ⟨SM, transpose SM [1, 0] w3 ht⟩] h (ix2 k n)
      = wcat w0 w1 w2 w3 (ix2 k n) := by
  rw [wcat_ix2]
  refine (Cert.LibConcat4.concat4_apply (t := SWW) (s := SM) 1 _ _ _ _ h rfl 128 rfl (ix2 k n) (piece n) rfl
    (ix2 k (within n)) rfl (fun b hb => match b, hb with
      | ⟨0, _⟩, _ => rfl
      | ⟨1, _⟩, hb => absurd rfl hb)).trans ?_
  rw [pick_map (fun w => transpose SM [1, 0] w ht) w0 w1 w2 w3 (piece n)]
  exact transpose_ix2_apply _ ht k (within n)

/-- Four vectors end to end. -/
theorem vec_joined (b0 b1 b2 b3 : SV.Idx → α) (h : Shape.Concatenates [SV, SV, SV, SV] SV4 0) (n : Fin 512) :
    concatenate SV4 0 [⟨SV, b0⟩, ⟨SV, b1⟩, ⟨SV, b2⟩, ⟨SV, b3⟩] h (ix1 n) = bcat b0 b1 b2 b3 n :=
  Cert.LibConcat4.concat4_apply (t := SV4) (s := SV) 0 b0 b1 b2 b3 h rfl 128 rfl (ix1 n) (piece n) rfl
    (ix1 (within n)) rfl (fun b hb => match b, hb with
      | ⟨0, _⟩, hb => absurd rfl hb)

end Cert.LstmSpec
-- ==== Proof.HostSide.lean ====
/-
  What the three arrays that the host operations compute hold when the region is entered.

  The first weight matrix is the four input-to-gate matrices, each transposed, joined along the columns (and narrowed
  to bf16, which changes nothing on the extended reals); the second is the same of the four hidden-to-gate matrices;
  the bias row is the sum of the two joined bias vectors, as one row. Read at an index these are the joined matrix
  and the joined vectors of Joined.lean.
-/
import proofs.«151129_j11398843204098_2_alg».proof.Proof.Gen.KernelIdeal.Launch
import proofs.«151129_j11398843204098_2_alg».proof.Proof.Joined
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.SL.Sem Idealize.ShloMosaic.StableHlo Idealize.ShloMosaic.ValueIdx
open Cert.LstmSpec

variable (m : (ℓ : Loc nD τ sig) → Buf (Elt Ideal) ℓ)

/-- The first weight matrix as the region finds it. -/
theorem wx_eq (c : Dev nD) : (StableHlo.after (hostOps0 (F := Ideal)) (fun b => m (c, b)) main_v14 : FVec Ideal S128x512 .bf16)
    = truncf (F := Ideal) .bf16 (concatenate (α := Ideal .f32) S128x512 1 [⟨S128x128, transpose S128x128 [1, 0] (m ((c : Thread nD τ).loc main_arg3) : FVec Ideal S128x128 .f32) transposes_S128x128_S128x128_1_0⟩,
        ⟨S128x128, transpose S128x128 [1, 0] (m ((c : Thread nD τ).loc main_arg7) : FVec Ideal S128x128 .f32) transposes_S128x128_S128x128_1_0⟩,
        ⟨S128x128, transpose S128x128 [1, 0] (m ((c : Thread nD τ).loc main_arg11) : FVec Ideal S128x128 .f32) transposes_S128x128_S128x128_1_0⟩,
        ⟨S128x128, transpose S128x128 [1, 0] (m ((c : Thread nD τ).loc main_arg15) : FVec Ideal S128x128 .f32) transposes_S128x128_S128x128_1_0⟩]
        concatenates_S128x128_S128x128_S128x128_S128x128_S128x512_d1) bitsLt_bf16_f32 := by
  dsimp only [hostOps0]
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne']
  rfl

/-- The second weight matrix as the region finds it. -/
theorem wh_eq (c : Dev nD) : (StableHlo.after (hostOps0 (F := Ideal)) (fun b => m (c, b)) main_v15 : FVec Ideal S128x512 .bf16)
    = truncf (F := Ideal) .bf16 (concatenate (α := Ideal .f32) S128x512 1 [⟨S128x128, transpose S128x128 [1, 0] (m ((c : Thread nD τ).loc main_arg5) : FVec Ideal S128x128 .f32) transposes_S128x128_S128x128_1_0⟩,
        ⟨S128x128, transpose S128x128 [1, 0] (m ((c : Thread nD τ).loc main_arg9) : FVec Ideal S128x128 .f32) transposes_S128x128_S128x128_1_0⟩,
        ⟨S128x128, transpose S128x128 [1, 0] (m ((c : Thread nD τ).loc main_arg13) : FVec Ideal S128x128 .f32) transposes_S128x128_S128x128_1_0⟩,
        ⟨S128x128, transpose S128x128 [1, 0] (m ((c : Thread nD τ).loc main_arg17) : FVec Ideal S128x128 .f32) transposes_S128x128_S128x128_1_0⟩]
        concatenates_S128x128_S128x128_S128x128_S128x128_S128x512_d1) bitsLt_bf16_f32 := by
  dsimp only [hostOps0]
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne']
  rfl

/-- The bias row as the region finds it. -/
theorem b_eq (c : Dev nD) : (StableHlo.after (hostOps0 (F := Ideal)) (fun b => m (c, b)) main_v13 : FVec Ideal S1x512 .f32)
    = shapeCast S1x512 (addf (F := Ideal) (φ := .f32) (concatenate (α := Ideal .f32) S512 0 [⟨S128, (m ((c : Thread nD τ).loc main_arg4) : FVec Ideal S128 .f32)⟩, ⟨S128, (m ((c : Thread nD τ).loc main_arg8) : FVec Ideal S128 .f32)⟩, ⟨S128, (m ((c : Thread nD τ).loc main_arg12) : FVec Ideal S128 .f32)⟩, ⟨S128, (m ((c : Thread nD τ).loc main_arg16) : FVec Ideal S128 .f32)⟩] concatenates_S128_S128_S128_S128_S512_d0)
        (concatenate (α := Ideal .f32) S512 0 [⟨S128, (m ((c : Thread nD τ).loc main_arg6) : FVec Ideal S128 .f32)⟩, ⟨S128, (m ((c : Thread nD τ).loc main_arg10) : FVec Ideal S128 .f32)⟩, ⟨S128, (m ((c : Thread nD τ).loc main_arg14) : FVec Ideal S128 .f32)⟩, ⟨S128, (m ((c : Thread nD τ).loc main_arg18) : FVec Ideal S128 .f32)⟩] concatenates_S128_S128_S128_S128_S512_d0))
        shapeCasts_S512_S1x512 := by
  dsimp only [hostOps0]
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne']
  rfl

/-- The first weight matrix at (k, n). -/
theorem wx_apply (c : Dev nD) (k : Fin 128) (n : Fin 512) :
    (StableHlo.after (hostOps0 (F := Ideal)) (fun b => m (c, b)) main_v14 : FVec Ideal S128x512 .bf16) (ix2 k n)
      = wcat (α := EReal) (m ((c : Thread nD τ).loc main_arg3) : FVec Ideal S128x128 .f32) (m ((c : Thread nD τ).loc main_arg7) : FVec Ideal S128x128 .f32) (m ((c : Thread nD τ).loc main_arg11) : FVec Ideal S128x128 .f32) (m ((c : Thread nD τ).loc main_arg15) : FVec Ideal S128x128 .f32) (ix2 k n) := by
  rw [wx_eq]
  exact cols_joined_of_transposed (α := EReal) _ _ _ _ concatenates_S128x128_S128x128_S128x128_S128x128_S128x512_d1 transposes_S128x128_S128x128_1_0 k n

/-- The second weight matrix at (k, n). -/
theorem wh_apply (c : Dev nD) (k : Fin 128) (n : Fin 512) :
    (StableHlo.after (hostOps0 (F := Ideal)) (fun b => m (c, b)) main_v15 : FVec Ideal S128x512 .bf16) (ix2 k n)
      = wcat (α := EReal) (m ((c : Thread nD τ).loc main_arg5) : FVec Ideal S128x128 .f32) (m ((c : Thread nD τ).loc main_arg9) : FVec Ideal S128x128 .f32) (m ((c : Thread nD τ).loc main_arg13) : FVec Ideal S128x128 .f32) (m ((c : Thread nD τ).loc main_arg17) : FVec Ideal S128x128 .f32) (ix2 k n) := by
  rw [wh_eq]
  exact cols_joined_of_transposed (α := EReal) _ _ _ _ concatenates_S128x128_S128x128_S128x128_S128x128_S128x512_d1 transposes_S128x128_S128x128_1_0 k n

/-- The bias row at (0, n). -/
theorem b_apply (c : Dev nD) (n : Fin 512) :
    (StableHlo.after (hostOps0 (F := Ideal)) (fun b => m (c, b)) main_v13 : FVec Ideal S1x512 .f32) (ix2 (0 : Fin 1) n)
      = bcat (α := EReal) (m ((c : Thread nD τ).loc main_arg4) : FVec Ideal S128 .f32) (m ((c : Thread nD τ).loc main_arg8) : FVec Ideal S128 .f32) (m ((c : Thread nD τ).loc main_arg12) : FVec Ideal S128 .f32) (m ((c : Thread nD τ).loc main_arg16) : FVec Ideal S128 .f32) n + bcat (α := EReal) (m ((c : Thread nD τ).loc main_arg6) : FVec Ideal S128 .f32) (m ((c : Thread nD τ).loc main_arg10) : FVec Ideal S128 .f32) (m ((c : Thread nD τ).loc main_arg14) : FVec Ideal S128 .f32) (m ((c : Thread nD τ).loc main_arg18) : FVec Ideal S128 .f32) n := by
  rw [b_eq, shapeCast_a_1a_apply]
  exact congrArg₂ (· + ·) (vec_joined (α := EReal) _ _ _ _ concatenates_S128_S128_S128_S128_S512_d0 n) (vec_joined (α := EReal) _ _ _ _ concatenates_S128_S128_S128_S128_S512_d0 n)

end Cert.KernelIdeal.HostSide

end
-- ==== Proof.FinalIdeal.lean ====
/-
  The idealized kernel's run, read: after it the two result arrays are the LSTM step of Spec.lean applied to the
  argument arrays as launched — the batch arrays themselves, the weight matrices joined from the eight gate matrices,
  the bias the sum of the two joined bias vectors — and the nineteen arguments are unchanged.
-/
import proofs.«151129_j11398843204098_2_alg».proof.Proof.WholeIdeal
import proofs.«151129_j11398843204098_2_alg».proof.Proof.HostSide

noncomputable section

namespace Cert.KernelIdeal.Final

open Cert.KernelIdeal Cert.KernelIdeal.Gen Cert.KernelIdeal.Region Cert.KernelIdeal.Whole Idealize.ShloMosaic Idealize.ShloMosaic.TcCoe Idealize.SL.Sem
open Idealize.ShloMosaic.ValueIdx Cert.LstmSpec
open Idealize.ShloMosaic.Pipeline (Dat)

variable (m : (ℓ : Loc nD τ sig) → Buf (Elt Ideal) ℓ) (ρ : Dev nD → PrngReg)

/-- The new hidden state and the new cell state as functions of the launch contents. -/
def resH (c : Dev nD) : S131072x128.Idx → EReal := hiddenArr (m ((c : Thread nD τ).loc main_arg0)) (m ((c : Thread nD τ).loc main_arg1)) (m ((c : Thread nD τ).loc main_arg2)) (wcat (α := EReal) (m ((c : Thread nD τ).loc main_arg3)) (m ((c : Thread nD τ).loc main_arg7)) (m ((c : Thread nD τ).loc main_arg11)) (m ((c : Thread nD τ).loc main_arg15))) (wcat (α := EReal) (m ((c : Thread nD τ).loc main_arg5)) (m ((c : Thread nD τ).loc main_arg9)) (m ((c : Thread nD τ).loc main_arg13)) (m ((c : Thread nD τ).loc main_arg17))) (fun n => bcat (α := EReal) (m ((c : Thread nD τ).loc main_arg4)) (m ((c : Thread nD τ).loc main_arg8)) (m ((c : Thread nD τ).loc main_arg12)) (m ((c : Thread nD τ).loc main_arg16)) n + bcat (α := EReal) (m ((c : Thread nD τ).loc main_arg6)) (m ((c : Thread nD τ).loc main_arg10)) (m ((c : Thread nD τ).loc main_arg14)) (m ((c : Thread nD τ).loc main_arg18)) n)
def resC (c : Dev nD) : S131072x128.Idx → EReal := cellArr (m ((c : Thread nD τ).loc main_arg0)) (m ((c : Thread nD τ).loc main_arg1)) (m ((c : Thread nD τ).loc main_arg2)) (wcat (α := EReal) (m ((c : Thread nD τ).loc main_arg3)) (m ((c : Thread nD τ).loc main_arg7)) (m ((c : Thread nD τ).loc main_arg11)) (m ((c : Thread nD τ).loc main_arg15))) (wcat (α := EReal) (m ((c : Thread nD τ).loc main_arg5)) (m ((c : Thread nD τ).loc main_arg9)) (m ((c : Thread nD τ).loc main_arg13)) (m ((c : Thread nD τ).loc main_arg17))) (fun n => bcat (α := EReal) (m ((c : Thread nD τ).loc main_arg4)) (m ((c : Thread nD τ).loc main_arg8)) (m ((c : Thread nD τ).loc main_arg12)) (m ((c : Thread nD τ).loc main_arg16)) n + bcat (α := EReal) (m ((c : Thread nD τ).loc main_arg6)) (m ((c : Thread nD τ).loc main_arg10)) (m ((c : Thread nD τ).loc main_arg14)) (m ((c : Thread nD τ).loc main_arg18)) n)

/-- The weight matrices and the bias row as the region finds them, as whole arrays. -/
theorem Wx_eq (c : Dev nD) : (V m c main_v14 : SW.Idx → EReal) = wcat (α := EReal) (m ((c : Thread nD τ).loc main_arg3)) (m ((c : Thread nD τ).loc main_arg7)) (m ((c : Thread nD τ).loc main_arg11)) (m ((c : Thread nD τ).loc main_arg15)) :=
  funext fun i => by
    obtain ⟨k, n, rfl⟩ : ∃ (k : Fin 128) (n : Fin 512), i = ix2 k n := ⟨i 0, i 1, eq_ix2 i⟩
    exact HostSide.wx_apply m c k n
theorem Wh_eq (c : Dev nD) : (V m c main_v15 : SW.Idx → EReal) = wcat (α := EReal) (m ((c : Thread nD τ).loc main_arg5)) (m ((c : Thread nD τ).loc main_arg9)) (m ((c : Thread nD τ).loc main_arg13)) (m ((c : Thread nD τ).loc main_arg17)) :=
  funext fun i => by
    obtain ⟨k, n, rfl⟩ : ∃ (k : Fin 128) (n : Fin 512), i = ix2 k n := ⟨i 0, i 1, eq_ix2 i⟩
    exact HostSide.wh_apply m c k n
theorem B_eq (c : Dev nD) : (fun n : Fin 512 => (V m c main_v13 : S1x512.Idx → EReal) (ix2 (0 : Fin 1) n))
    = fun n => bcat (α := EReal) (m ((c : Thread nD τ).loc main_arg4)) (m ((c : Thread nD τ).loc main_arg8)) (m ((c : Thread nD τ).loc main_arg12)) (m ((c : Thread nD τ).loc main_arg16)) n + bcat (α := EReal) (m ((c : Thread nD τ).loc main_arg6)) (m ((c : Thread nD τ).loc main_arg10)) (m ((c : Thread nD τ).loc main_arg14)) (m ((c : Thread nD τ).loc main_arg18)) n :=
  funext fun n => HostSide.b_apply m c n

theorem finalH' (c : Dev nD) : (dats m 0 c).arrAt 6 cfg0.N = resH m c := by
  rw [finalH]
  unfold resH
  rw [V_main_arg0, V_main_arg1, V_main_arg2, Wx_eq, Wh_eq, B_eq]

theorem finalC' (c : Dev nD) : (dats m 0 c).arrAt 7 cfg0.N = resC m c := by
  rw [finalC]
  unfold resC
  rw [V_main_arg0, V_main_arg1, V_main_arg2, Wx_eq, Wh_eq, B_eq]

/-- The run: both results named, the arguments unchanged. -/
theorem run : θ_run defs (onTc (τ := τ) (main (F := Ideal))) ⟨m, fun _ => 0, ρ⟩ fun r => ∀ c : Dev nD,
      r.2.mem ((c.tc : Thread nD τ).loc main_v16_0) = resH m c
      ∧ r.2.mem ((c.tc : Thread nD τ).loc main_v16_1) = resC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (finalH' m c), ((h c).1 7).trans (finalC' m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩)
    (run_main m ρ)

end Cert.KernelIdeal.Final

end
-- ==== Proof.RefSide.lean ====
/-
  The reference computes the LSTM step of Spec.lean.

  Its gates are the two matrix products plus the first bias vector plus the second, each bias vector broadcast down
  the rows; its weight matrices are the four gates' matrices joined along the rows and transposed; its logistic
  function is spelt 1 / (1 + exp(-z)). Read one operation at a time at an index, its two results are the cell and
  hidden arrays of the specification.
-/
import proofs.«151129_j11398843204098_2_alg».proof.Proof.Gen.ReferenceIdeal.Read
import proofs.«151129_j11398843204098_2_alg».proof.Proof.Spec
import proofs.«151129_j11398843204098_2_alg».proof.Proof.Joined

noncomputable section

open scoped BigOperators

namespace Cert.ReferenceIdeal.RefValue

open Cert.ReferenceIdeal Cert.ReferenceIdeal.Gen Cert.ReferenceIdeal.Read Idealize.ShloMosaic Idealize.ShloMosaic.ValueIdx Cert.LstmSpec

variable (x0 x1 x2 : (⟨S131072x128, .f32⟩ : BufTy).Contents (Elt Ideal))
  (x3 x5 x7 x9 x11 x13 x15 x17 : (⟨S128x128, .f32⟩ : BufTy).Contents (Elt Ideal))
  (x4 x6 x8 x10 x12 x14 x16 x18 : (⟨S128, .f32⟩ : BufTy).Contents (Elt Ideal))

/-- The reference's joined, transposed weight matrix at (k, n). -/
theorem weights_apply (w0 w1 w2 w3 : (⟨S128x128, .f32⟩ : BufTy).Contents (Elt Ideal)) (k : Fin 128) (n : Fin 512) :
    val_main_v4 (F := Ideal) w0 w1 w2 w3 (ix2 k n) = wcat w0 w1 w2 w3 (ix2 k n) :=
  rows_joined_transposed w0 w1 w2 w3 _ _ k n

/-- The same for the second weight matrix (the same operations on the other four matrices). -/
theorem weights_apply' (w0 w1 w2 w3 : (⟨S128x128, .f32⟩ : BufTy).Contents (Elt Ideal)) (k : Fin 128) (n : Fin 512) :
    val_main_v6 (F := Ideal) w0 w1 w2 w3 (ix2 k n) = wcat w0 w1 w2 w3 (ix2 k n) :=
  rows_joined_transposed w0 w1 w2 w3 _ _ k n

/-- The reference's gate pre-activations at (r, n). -/
theorem gate_apply (r : Fin 131072) (n : Fin 512) :
    val_main_v14 (F := Ideal) x0 x1 x3 x4 x5 x6 x7 x8 x9 x10 x11 x12 x13 x14 x15 x16 x17 x18 (ix2 r n) = gate x0 x1 (wcat x3 x7 x11 x15) (wcat x5 x9 x13 x17) (fun n => bcat x4 x8 x12 x16 n + bcat x6 x10 x14 x18 n) r n := by
  have hl5 : ∀ k, lidx_main_v5 (ix2 r n) k = ix2 r k := fun k => funext fun a => match a with | ⟨0, _⟩ => rfl | ⟨1, _⟩ => rfl
  have hr5 : ∀ k, ridx_main_v5 (ix2 r n) k = ix2 k n := fun k => funext fun a => match a with | ⟨0, _⟩ => rfl | ⟨1, _⟩ => rfl
  have hl7 : ∀ k, lidx_main_v7 (ix2 r n) k = ix2 r k := fun k => funext fun a => match a with | ⟨0, _⟩ => rfl | ⟨1, _⟩ => rfl
  have hr7 : ∀ k, ridx_main_v7 (ix2 r n) k = ix2 k n := fun k => funext fun a => match a with | ⟨0, _⟩ => rfl | ⟨1, _⟩ => rfl
  have e9 : idx_main_v9 (idx_main_v10 (ix2 r n)) = ix1 n := funext fun a => match a with | ⟨0, _⟩ => rfl
  have e12 : idx_main_v12 (idx_main_v13 (ix2 r n)) = ix1 n := funext fun a => match a with | ⟨0, _⟩ => rfl
  rw [val_main_v14_apply, val_main_v11_apply, val_main_v8_apply, val_main_v5_apply, val_main_v7_apply,
    val_main_v10_apply, val_main_v9_apply, val_main_v13_apply, val_main_v12_apply, e9, e12]
  simp only [hl5, hr5, hl7, hr7, weights_apply, weights_apply']
  unfold val_main_v2 val_main_v3
  rw [vec_joined, vec_joined]
  exact gate_two_biases x0 x1 (wcat x3 x7 x11 x15) (wcat x5 x9 x13 x17) (bcat x4 x8 x12 x16) (bcat x6 x10 x14 x18) r n

/-- The reference's spelt-out logistic of a gate column. -/
theorem one_apply (i : S131072x128.Idx) : val_main_v21 (F := Ideal) i = Ideal.ofBits .f32 0x3F800000#32 := by
  rw [val_main_v21_apply]; rfl

/-- The new cell state at (r, j). -/
theorem cell_apply (r : Fin 131072) (j : Fin 128) :
    val_main_v40 (F := Ideal) x0 x1 x2 x3 x4 x5 x6 x7 x8 x9 x10 x11 x12 x13 x14 x15 x16 x17 x18 (ix2 r j) = cellAt x0 x1 x2 (wcat x3 x7 x11 x15) (wcat x5 x9 x13 x17) (fun n => bcat x4 x8 x12 x16 n + bcat x6 x10 x14 x18 n) r j := by
  have e15 : idx_main_v15 (ix2 r j) = ix2 r (col0 j) := funext fun a => match a with | ⟨0, _⟩ => rfl | ⟨1, _⟩ => rfl
  have e16 : idx_main_v16 (ix2 r j) = ix2 r (col1 j) := funext fun a => match a with | ⟨0, _⟩ => rfl | ⟨1, _⟩ => rfl
  have e17 : idx_main_v17 (ix2 r j) = ix2 r (col2 j) := funext fun a => match a with | ⟨0, _⟩ => rfl | ⟨1, _⟩ => rfl
  have h23 : val_main_v23 (F := Ideal) (ix2 r j) = Ideal.ofBits .f32 0x3F800000#32 := by rw [val_main_v23_apply]; rfl
  have h27 : val_main_v27 (F := Ideal) (ix2 r j) = Ideal.ofBits .f32 0x3F800000#32 := by rw [val_main_v27_apply]; rfl
  have h29 : val_main_v29 (F := Ideal) (ix2 r j) = Ideal.ofBits .f32 0x3F800000#32 := by rw [val_main_v29_apply]; rfl
  rw [val_main_v40_apply, val_main_v38_apply, val_main_v39_apply, val_main_v24_apply, val_main_v22_apply, val_main_v20_apply,
    val_main_v19_apply, val_main_v15_apply, val_main_v30_apply, val_main_v28_apply, val_main_v26_apply, val_main_v25_apply,
    val_main_v16_apply, val_main_v31_apply, val_main_v17_apply, e15, e16, e17, one_apply, h23, h27, h29,
    gate_apply, gate_apply, gate_apply]
  unfold cellAt
  simp only [Ideal.addf_def, Ideal.mulf_def, Ideal.hostDivf_def, Ideal.hostUnary_exp_def, Ideal.hostNegf_def, Ideal.negf_def,
    Ideal.hostUnary_tanh_def, logistic_spelt]

/-- The new hidden state at (r, j). -/
theorem hidden_apply (r : Fin 131072) (j : Fin 128) :
    val_main_v42 (F := Ideal) x0 x1 x2 x3 x4 x5 x6 x7 x8 x9 x10 x11 x12 x13 x14 x15 x16 x17 x18 (ix2 r j) = hiddenAt x0 x1 x2 (wcat x3 x7 x11 x15) (wcat x5 x9 x13 x17) (fun n => bcat x4 x8 x12 x16 n + bcat x6 x10 x14 x18 n) r j := by
  have e18 : idx_main_v18 (ix2 r j) = ix2 r (col3 j) := funext fun a => match a with | ⟨0, _⟩ => rfl | ⟨1, _⟩ => rfl
  have h34 : val_main_v34 (F := Ideal) (ix2 r j) = Ideal.ofBits .f32 0x3F800000#32 := by rw [val_main_v34_apply]; rfl
  have h36 : val_main_v36 (F := Ideal) (ix2 r j) = Ideal.ofBits .f32 0x3F800000#32 := by rw [val_main_v36_apply]; rfl
  rw [val_main_v42_apply, val_main_v37_apply, val_main_v35_apply, val_main_v33_apply, val_main_v32_apply, val_main_v18_apply,
    val_main_v41_apply, e18, h34, h36, gate_apply, cell_apply]
  unfold hiddenAt
  simp only [Ideal.addf_def, Ideal.mulf_def, Ideal.hostDivf_def, Ideal.hostUnary_exp_def, Ideal.hostNegf_def, Ideal.negf_def,
    Ideal.hostUnary_tanh_def, logistic_spelt]

/-- The reference's two results are the specification's arrays. -/
theorem cell_eq : val_main_v40 (F := Ideal) x0 x1 x2 x3 x4 x5 x6 x7 x8 x9 x10 x11 x12 x13 x14 x15 x16 x17 x18 = cellArr x0 x1 x2 (wcat x3 x7 x11 x15) (wcat x5 x9 x13 x17) (fun n => bcat x4 x8 x12 x16 n + bcat x6 x10 x14 x18 n) := by
  funext i
  obtain ⟨r, j, rfl⟩ : ∃ (r : Fin 131072) (j : Fin 128), i = ix2 r j := ⟨i 0, i 1, eq_ix2 i⟩
  rw [cell_apply, cellArr_ix2]

theorem hidden_eq : val_main_v42 (F := Ideal) x0 x1 x2 x3 x4 x5 x6 x7 x8 x9 x10 x11 x12 x13 x14 x15 x16 x17 x18 = hiddenArr x0 x1 x2 (wcat x3 x7 x11 x15) (wcat x5 x9 x13 x17) (fun n => bcat x4 x8 x12 x16 n + bcat x6 x10 x14 x18 n) := by
  funext i
  obtain ⟨r, j, rfl⟩ : ∃ (r : Fin 131072) (j : Fin 128), i = ix2 r j := ⟨i 0, i 1, eq_ix2 i⟩
  rw [hidden_apply, hiddenArr_ix2]

end Cert.ReferenceIdeal.RefValue

end
-- ==== Proof.lean ====
/-
  One step of an LSTM cell over a batch of 131072 rows with 128 inputs and 128 hidden units, computed block by block
  on a grid of 64 points (2048 rows each), against the same step written with whole-array operations.

  Both programs compute, for a batch row r and a unit j,

      gate(r, n)   = (sum_k X(r, k) * Wx(k, n) + sum_k Hp(r, k) * Wh(k, n)) + bias(n)      (n among 512 gate columns),
      cell(r, j)   = logistic(gate(r, j)) * Cp(r, j) + logistic(gate(r, 128 + j)) * tanh(gate(r, 256 + j)),
      hidden(r, j) = logistic(gate(r, 384 + j)) * tanh(cell(r, j)),

  with Wx, Wh the four gates' weight matrices transposed and joined, and bias the two joined bias vectors. They differ
  in how they build the joined matrices (transpose then join along the columns, or join along the rows then transpose),
  in the order of the two bias additions (the sum of the biases added once, or the biases added one after the other:
  equal because addition of extended reals is associative), in the spelling of the logistic function (the function
  itself, or 1 / (1 + exp(-z)): the same function on the extended reals, by definition), in the kernel's narrowing of
  its matrix operands to bf16 (the identity on the extended reals) and in the tiling. None of this needs the inputs to
  be finite, so the precondition is never opened.

  Each program terminates without a fault and leaves its arguments unchanged: for the two kernels this is the run of
  the region (RegionBits.lean, RegionIdeal.lean), for the reference the run of its list of operations. No rewrite was
  applied when the kernel was idealized, so there is nothing to preserve.
-/
import proofs.«151129_j11398843204098_2_alg».proof.Defs
import proofs.«151129_j11398843204098_2_alg».proof.Proof.Gen.Kernel
import proofs.«151129_j11398843204098_2_alg».proof.Proof.Gen.Kernel.Skeleton
import proofs.«151129_j11398843204098_2_alg».proof.Proof.Gen.Kernel.Launch
import proofs.«151129_j11398843204098_2_alg».proof.Proof.Gen.Kernel.Points
import proofs.«151129_j11398843204098_2_alg».proof.Proof.Gen.KernelIdeal
import proofs.«151129_j11398843204098_2_alg».proof.Proof.Gen.KernelIdeal.Skeleton
import proofs.«151129_j11398843204098_2_alg».proof.Proof.Gen.KernelIdeal.Launch
import proofs.«151129_j11398843204098_2_alg».proof.Proof.Gen.KernelIdeal.Points
import proofs.«151129_j11398843204098_2_alg».proof.Proof.Gen.ReferenceIdeal
import proofs.«151129_j11398843204098_2_alg».proof.Proof.Gen.Pre_finite_inputs
import proofs.«151129_j11398843204098_2_alg».proof.Proof.Gen.ReferenceIdeal.Run
import proofs.«151129_j11398843204098_2_alg».proof.Proof.Gen.ReferenceIdeal.Read
import proofs.«151129_j11398843204098_2_alg».proof.Proof.RegionBits
import proofs.«151129_j11398843204098_2_alg».proof.Proof.RegionIdeal
import proofs.«151129_j11398843204098_2_alg».proof.Proof.FinalIdeal
import proofs.«151129_j11398843204098_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Region.frame m ρ

/-- So does the kernel read on the extended reals. -/
theorem frame_ki : Cert.frame_KernelIdeal := fun m ρ _ => Cert.KernelIdeal.Region.frame m ρ

/-- The reference is a list of host operations: it runs, and no operation writes an argument. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten when the kernel was idealized. -/
theorem preserves : Cert.preserves_Kernel_KernelIdeal := trivial

/-- Both programs end with the new hidden state and the new cell state of the specification, of arguments that
    agree. -/
theorem algebraic : Cert.algebraic_KernelIdeal_ReferenceIdeal := by
  intro m ρ m' ρ' _ hagree
  refine ⟨fun c => Cert.KernelIdeal.Final.resH m c, fun c => Cert.KernelIdeal.Final.resC m c,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v42_eq, Cert.ReferenceIdeal.RefValue.hidden_eq, h0, h1, h2, h3, h4, h5, h6, h7, h8, h9, h10, h11, h12, h13, h14, h15, h16, h17, h18]
    rfl
  · obtain ⟨h0, h1, h2, h3, h4, h5, h6, h7, h8, h9, h10, h11, h12, h13, h14, h15, h16, h17, h18⟩ := hagree c
    rw [Cert.ReferenceIdeal.Read.val_main_v40_eq, Cert.ReferenceIdeal.RefValue.cell_eq, h0, h1, h2, h3, h4, h5, h6, h7, h8, h9, h10, h11, h12, h13, h14, h15, h16, h17, h18]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
